-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256 .f32) (main_arg6 : FVec F S256x1 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S100000 32) (main_arg2 : FVec F S128x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S100000x128 : Shape := ⟨2, ![100000, 128]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x256 : Shape := ⟨2, ![1, 256]⟩
abbrev S1x1 : Shape := ⟨2, ![1, 1]⟩
abbrev S512x256 : Shape := ⟨2, ![512, 256]⟩

abbrev nBuf : Space → Nat
  | .hbm => 33
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .f32⟩
  | .hbm, ⟨9, _⟩ => ⟨S512x128, .f32⟩
  | .hbm, ⟨10, _⟩ => ⟨S100000x1, .i32⟩
  | .hbm, ⟨11, _⟩ => ⟨S512x128, .f32⟩
  | .hbm, ⟨12, _⟩ => ⟨S_, .f32⟩
  | .hbm, ⟨13, _⟩ => ⟨S100000, .f32⟩
  | .hbm, ⟨14, _⟩ => ⟨S_, .f32⟩
  | .hbm, ⟨15, _⟩ => ⟨S512, .f32⟩
  | .hbm, ⟨16, _⟩ => ⟨S100000x1, .i32⟩
  | .hbm, ⟨17, _⟩ => ⟨S512, .f32⟩
  | .hbm, ⟨18, _⟩ => ⟨S512x1, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x1, .f32⟩
  | .hbm, ⟨23, _⟩ => ⟨S512x1, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000x1, .f32⟩
  | .local _ .vmem, ⟨0, _⟩ => ⟨S512x128, .f32⟩
  | .local _ .vmem, ⟨1, _⟩ => ⟨S512x1, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x1, .f32⟩
  | .local _ .vmem, ⟨8, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  shapeCasts_S512_S512x1 : S512.ShapeCasts S512x1
  shapeCasts_S256_S1x256 : S256.ShapeCasts S1x256
  shapeCasts_S256x1_S1x256 : S256x1.ShapeCasts S1x256
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S256x256_S256x256_0_0 : ∀ a, (![0, 0] : Fin 2 → Nat) a + S256x256.size a ≤ S256x256.size a
  h_S256x256 : 0 < S256x256.numel
  reduces_S512x256_S512 : S512x256.Reduces [1] S512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []
  gather_S512x1_S100000x1_S100000x1_1_0_n_n_0_1_11_wf : GatherDims.WF S512x1 S100000x1 S100000x1 [1] [0] [] [0] [] 1 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .f32 = 32 ∨ (Rect.block (s := S512x1) S512x1.size (cc0_transform_8 i) (hinb0_8 i)).WholeWords (EltTy.packing .f32)

variable [Facts₀]

def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def gather_S512x1_S100000x1_S100000x1_1_0_n_n_0_1_11 : GatherDims S512x1 S100000x1 S100000x1 where
  offsetDims := [1]
  collapsedSliceDims := [0]
  operandBatchingDims := []
  startIndicesBatchingDims := []
  startIndexMap := [0]
  indexVectorDim := 1
  sliceSizes := ![1, 1]
  wf := gather_S512x1_S100000x1_S100000x1_1_0_n_n_0_1_11_wf

abbrev win0_0 : Pipeline.Window sig grid0 :=
  Pipeline.Window.ofSpec (Memref.whole main_v2) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S512x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S512x128 : Shape := ⟨2, ![512, 128]⟩
abbrev S100000x1 : Shape := ⟨2, ![100000, 1]⟩
abbrev S100000x256 : Shape := ⟨2, ![100000, 256]⟩
abbrev S1x256 : Shape := ⟨2, ![1, 256]⟩
abbrev S512x256 : Shape := ⟨2, ![512, 256]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .f32⟩
  | .hbm, ⟨9, _⟩ => ⟨S512x128, .f32⟩
  | .hbm, ⟨10, _⟩ => ⟨S100000x1, .i32⟩
  | .hbm, ⟨11, _⟩ => ⟨S512x128, .f32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S100000x128, .f32⟩
  | .hbm, ⟨21, _⟩ => ⟨S100000x256, .f32⟩
  | .hbm, ⟨22, _⟩ => ⟨S1x256, .f32⟩
  | .hbm, ⟨23, _⟩ => ⟨S100000x256, .f32⟩
  | .hbm, ⟨24, _⟩ => ⟨S100000x256, .f32⟩
  | .hbm, ⟨25, _⟩ => ⟨S_, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S512x256, .f32⟩
  | .hbm, ⟨30, _⟩ => ⟨S100000x1, .i32⟩
  | .hbm, ⟨31, _⟩ => ⟨S512x256, .f32⟩
  | .hbm, ⟨32, _⟩ => ⟨S_, .i32⟩
  | .hbm, ⟨33, _⟩ => ⟨S100000, .i32⟩
  | .hbm, ⟨34, _⟩ => ⟨S100000, .i1⟩
  | .hbm, ⟨35, _⟩ => ⟨S_, .i32⟩
  | .hbm, ⟨36, _⟩ => ⟨S100000, .i32⟩
  | .hbm, ⟨37, _⟩ => ⟨S100000, .i32⟩
  | .hbm, ⟨38, _⟩ => ⟨S100000, .i32⟩
  | .hbm, ⟨39, _⟩ => ⟨S100000x1, .i32⟩
  | .hbm, ⟨40, _⟩ => ⟨S100000x256, .f32⟩
  | .hbm, ⟨41, _⟩ => ⟨S100000x256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000x256, .f32⟩
  | .hbm, ⟨47, _⟩ => ⟨S100000x256, .f32⟩
  | .hbm, ⟨48, _⟩ => ⟨S100000x1, .f32⟩
  | .hbm, ⟨49, _⟩ => ⟨S1x1, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x1, .f32⟩
  | .hbm, ⟨56, _⟩ => ⟨S100000x1, .f32⟩
  | .hbm, ⟨57, _⟩ => ⟨S100000x1, .i1⟩
  | .hbm, ⟨58, _⟩ => ⟨S100000x1, .f32⟩
  | .hbm, ⟨59, _⟩ => ⟨S100000x1, .f32⟩
  | .hbm, ⟨60, _⟩ => ⟨S100000x1, .f32⟩
  | .hbm, ⟨61, _⟩ => ⟨S100000x1, .f32⟩
  | .hbm, ⟨62, _⟩ => ⟨S100000x1, .f32⟩
  | .hbm, ⟨63, _⟩ => ⟨S100000x1, .f32⟩
  | .hbm, ⟨64, _⟩ => ⟨S100000x1, .f32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_v34 : Ref sig .tc := ⟨.hbm, 65, rfl⟩
abbrev main_cst_4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩

abbrev nD : Nat := 1
abbrev τ : Topo := Topo.v7x

variable {F : FTy → Type} [FloatOps F]

class Facts₀ : Prop where
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S512x256 : S_.BroadcastsInDim S512x256 (![] : Fin 0 → Fin S512x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S512x128_S100000x1_S100000x128_1_0_0_1_wf : ScatterDims.WF S512x128 S100000x1 S100000x128 [1] [0] [0] 1
  gather_S512x128_S100000x1_S100000x128_1_0_n_n_0_1_1128_wf : GatherDims.WF S512x128 S100000x1 S100000x128 [1] [0] [] [0] [] 1 ![1, 128]
  dot_S100000x128_S128x256_S100000x256_1_0_0_1_n_n_wf : DotDims.WF S100000x128 S128x256 S100000x256 [1] [0] [0] [1] [] []
  scatter_S512x256_S100000x1_S100000x256_1_0_0_1_wf : ScatterDims.WF S512x256 S100000x1 S100000x256 [1] [0] [0] 1
  gather_S512x256_S100000x1_S100000x256_1_0_n_n_0_1_1256_wf : GatherDims.WF S512x256 S100000x1 S100000x256 [1] [0] [] [0] [] 1 ![1, 256]
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def gather_S512x128_S100000x1_S100000x128_1_0_n_n_0_1_1128 : GatherDims S512x128 S100000x1 S100000x128 where
  offsetDims := [1]
  collapsedSliceDims := [0]
  operandBatchingDims := []
  startIndicesBatchingDims := []
  startIndexMap := [0]
  indexVectorDim := 1
  sliceSizes := ![1, 128]
  wf := gather_S512x128_S100000x1_S100000x128_1_0_n_n_0_1_1128_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def gather_S512x256_S100000x1_S100000x256_1_0_n_n_0_1_1256 : GatherDims S512x256 S100000x1 S100000x256 where
  offsetDims := [1]
  collapsedSliceDims := [0]
  operandBatchingDims := []
  startIndicesBatchingDims := []
  startIndexMap := [0]
  indexVectorDim := 1
  sliceSizes := ![1, 256]
  wf := gather_S512x256_S100000x1_S100000x256_1_0_n_n_0_1_1256_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.LibRowIndex.lean ====
/-
  Rows indexed by data: a scatter-add of rows and a gather of rows, read at an index.

  `x.at[idx].add(upd)` over the rows of an `[R, C]` table (one row index per update row, carried as an `[N, 1]` array of
  words) is, at the ideal values, the table's entry plus the sum of the update rows whose index IS that row: the index
  word is read signed and NOT clamped, so a word outside `[0, R)` names no row and its update is dropped. The same
  for a flat `[R]` table of scalars. `x[idx]` over the rows of an `[R, C]` table reads row `min (toNat idx) (R - 1)`: the
  word read signed and CLAMPED into `[0, R - 1]`. The two meet where it matters: a word that names a row for the
  scatter names the same row for the gather (`clampRow_of_eq`).
-/
import Idealize.ShloMosaic.PureOps.Ideal
import Idealize.ShloMosaic.Lib.ValueIdx

noncomputable section

open scoped BigOperators

namespace Cert.RowIndex

open Idealize.ShloMosaic Idealize.ShloMosaic.ValueIdx

/-! ## The dimension numbers -/

/-- A scatter of `[N, C]` update rows into the rows of an `[R, C]` table, the row named by an `[N, 1]` array of words. -/
abbrev rowScatter (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

variable {R C N w : Nat}

section Scatter
variable (wf : ScatterDims.WF ⟨2, ![R, C]⟩ ⟨2, ![N, 1]⟩ ⟨2, ![N, C]⟩ [1] [0] [0] 1)
  (j : (⟨2, ![N, C]⟩ : Shape).Idx) (idx : IVec ⟨2, ![N, 1]⟩ w)

theorem rowScatter_start0 : (rowScatter R C N wf).start j idx 0 = (idx (ix2 (j 0) (0 : Fin 1))).toInt := by
  unfold ScatterDims.start
  rw [dif_pos (show (0 : Fin 2) ∈ (rowScatter R C N wf).scatterDimsToOperandDims from List.mem_singleton.mpr rfl)]
  have hsi : (rowScatter R C N wf).siIdx j ⟨List.idxOf (0 : Fin 2) (rowScatter R C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_start1 : (rowScatter R C N wf).start j idx 1 = 0 := by
  unfold ScatterDims.start
  rw [dif_neg (show ¬ (1 : Fin 2) ∈ (rowScatter R C N wf).scatterDimsToOperandDims from
    (by decide : ¬ (1 : Fin 2) ∈ ([0] : List (Fin 2))))]

theorem rowScatter_window0 : (rowScatter R C N wf).window j 0 = 0 := by
  unfold ScatterDims.window
  rw [dif_neg (show ¬ (0 : Fin 2) ∈ (rowScatter R C N wf).sKept from
    (by decide : ¬ (0 : Fin 2) ∈ ([1] : List (Fin 2))))]

theorem rowScatter_window1 : (rowScatter R C N wf).window j 1 = (j 1).val := by
  unfold ScatterDims.window
  rw [dif_pos (show (1 : Fin 2) ∈ (rowScatter R C N wf).sKept from
    (by decide : (1 : Fin 2) ∈ ([1] : List (Fin 2))))]
  rfl

/-- An update row lands on the table row its index word names, column for column; a word outside `[0, R)` lands nowhere. -/
theorem rowScatter_resultIdx?_eq_some_iff (i : (⟨2, ![R, C]⟩ : Shape).Idx) :
    (rowScatter R C N wf).resultIdx? j idx = some i
      ↔ (idx (ix2 (j 0) (0 : Fin 1))).toInt = ((i 0).val : ℤ) ∧ (j 1).val = (i 1).val := by
  have hs0 := rowScatter_start0 wf j idx
  have hs1 := rowScatter_start1 wf j idx
  have hw0 := rowScatter_window0 wf j
  have hw1 := rowScatter_window1 wf j
  have hi0 := idx2_lt0 i
  have hi1 := idx2_lt1 i
  have hj1 := idx2_lt1 j
  unfold ScatterDims.resultIdx?
  split
  · rename_i h
    rw [Option.some.injEq]
    constructor
    · intro e
      have e0 : ((rowScatter R C N wf).start j idx 0 + ((rowScatter R C N wf).window j 0 : ℤ)).toNat = (i 0).val :=
        congrArg (fun f : (⟨2, ![R, C]⟩ : Shape).Idx => (f 0).val) e
      have e1 : ((rowScatter R C N wf).start j idx 1 + ((rowScatter R C N wf).window j 1 : ℤ)).toNat = (i 1).val :=
        congrArg (fun f : (⟨2, ![R, C]⟩ : Shape).Idx => (f 1).val) e
      have h0 := (h 0).1
      rw [hs0, hw0] at e0 h0
      rw [hs1, hw1] at e1
      constructor <;> omega
    · rintro ⟨e0, e1⟩
      funext a
      refine Fin.ext ?_
      match a with
      | ⟨0, _⟩ =>
        show ((rowScatter R C N wf).start j idx 0 + ((rowScatter R C N wf).window j 0 : ℤ)).toNat = (i 0).val
        rw [hs0, hw0]; omega
      | ⟨1, _⟩ =>
        show ((rowScatter R C N wf).start j idx 1 + ((rowScatter R C N wf).window j 1 : ℤ)).toNat = (i 1).val
        rw [hs1, hw1]; omega
  · rename_i h
    constructor
    · intro e; cases e
    · rintro ⟨e0, e1⟩
      exfalso; apply h
      intro a
      match a with
      | ⟨0, _⟩ =>
        show 0 ≤ (rowScatter R C N wf).start j idx 0 + ((rowScatter R C N wf).window j 0 : ℤ)
          ∧ (rowScatter R C N wf).start j idx 0 + ((rowScatter R C N wf).window j 0 : ℤ) < (R : ℤ)
        rw [hs0, hw0]; omega
      | ⟨1, _⟩ =>
        show 0 ≤ (rowScatter R C N wf).start j idx 1 + ((rowScatter R C N wf).window j 1 : ℤ)
          ∧ (rowScatter R C N wf).start j idx 1 + ((rowScatter R C N wf).window j 1 : ℤ) < (C : ℤ)
        rw [hs1, hw1]; omega

/-- THE ROW SCATTER-ADD READ AT `(g, c)`, at the ideal values: the table's entry plus the sum, over the update rows whose
    index word is `g`, of their entry in column `c`. -/
theorem rowScatterAdd_apply (x : FVec Ideal ⟨2, ![R, C]⟩ .f32) (upd : FVec Ideal ⟨2, ![N, C]⟩ .f32) (g : Fin R) (c : Fin C) :
    Host.scatterAdd (F := Ideal) (rowScatter R C N wf) x idx upd (ix2 g c)
      = x (ix2 g c) + ∑ n ∈ Finset.univ.filter (fun n : Fin N => (idx (ix2 n (0 : Fin 1))).toInt = (g.val : ℤ)), upd (ix2 n c) := by
  show x (ix2 g c) + ∑ j ∈ Finset.univ.filter (fun j => (rowScatter R C N wf).resultIdx? j idx = some (ix2 g c)), upd j = _
  congr 1
  rw [Finset.sum_filter, sum_idx2, Finset.sum_filter]
  refine Finset.sum_congr rfl fun n _ => ?_
  by_cases hn : (idx (ix2 n (0 : Fin 1))).toInt = (g.val : ℤ)
  · rw [if_pos hn]
    rw [Finset.sum_eq_single c]
    · rw [if_pos ((rowScatter_resultIdx?_eq_some_iff wf (ix2 n c) idx (ix2 g c)).2 ⟨hn, rfl⟩)]
    · intro b _ hb
      rw [if_neg]
      intro h
      exact hb (Fin.ext ((rowScatter_resultIdx?_eq_some_iff wf (ix2 n b) idx (ix2 g c)).1 h).2)
    · intro h; exact absurd (Finset.mem_univ c) h
  · rw [if_neg hn]
    refine Finset.sum_eq_zero fun b _ => ?_
    rw [if_neg]
    intro h
    exact hn ((rowScatter_resultIdx?_eq_some_iff wf (ix2 n b) idx (ix2 g c)).1 h).1

end Scatter

/-! ## The flat table: one scalar per row -/

/-- A scatter of `[N]` scalars into an `[R]` table, the entry named by an `[N, 1]` array of words. -/
abbrev flatScatter (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

section Flat
variable (wf : ScatterDims.WF ⟨1, ![R]⟩ ⟨2, ![N, 1]⟩ ⟨1, ![N]⟩ [] [0] [0] 1)
  (j : (⟨1, ![N]⟩ : Shape).Idx) (idx : IVec ⟨2, ![N, 1]⟩ w)

theorem flatScatter_start0 : (flatScatter R N wf).start j idx 0 = (idx (ix2 (j 0) (0 : Fin 1))).toInt := by
  unfold ScatterDims.start
  rw [dif_pos (show (0 : Fin 1) ∈ (flatScatter R N wf).scatterDimsToOperandDims from List.mem_singleton.mpr rfl)]
  have hsi : (flatScatter R N wf).siIdx j ⟨List.idxOf (0 : Fin 1) (flatScatter R N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 : (flatScatter R N wf).window j 0 = 0 := by
  unfold ScatterDims.window
  rw [dif_neg (show ¬ (0 : Fin 1) ∈ (flatScatter R N wf).sKept from
    (by decide : ¬ (0 : Fin 1) ∈ ([] : List (Fin 1))))]

/-- A scalar update lands on the entry its index word names; a word outside `[0, R)` lands nowhere. -/
theorem flatScatter_resultIdx?_eq_some_iff (i : (⟨1, ![R]⟩ : Shape).Idx) :
    (flatScatter R N wf).resultIdx? j idx = some i ↔ (idx (ix2 (j 0) (0 : Fin 1))).toInt = ((i 0).val : ℤ) := by
  have hs0 := flatScatter_start0 wf j idx
  have hw0 := flatScatter_window0 wf j
  have hi0 : (i 0).val < R := (i 0).isLt
  unfold ScatterDims.resultIdx?
  split
  · rename_i h
    rw [Option.some.injEq]
    constructor
    · intro e
      have e0 : ((flatScatter R N wf).start j idx 0 + ((flatScatter R N wf).window j 0 : ℤ)).toNat = (i 0).val :=
        congrArg (fun f : (⟨1, ![R]⟩ : Shape).Idx => (f 0).val) e
      have h0 := (h 0).1
      rw [hs0, hw0] at e0 h0
      omega
    · intro e0
      funext a
      refine Fin.ext ?_
      match a with
      | ⟨0, _⟩ =>
        show ((flatScatter R N wf).start j idx 0 + ((flatScatter R N wf).window j 0 : ℤ)).toNat = (i 0).val
        rw [hs0, hw0]; omega
  · rename_i h
    constructor
    · intro e; cases e
    · intro e0
      exfalso; apply h
      intro a
      match a with
      | ⟨0, _⟩ =>
        show 0 ≤ (flatScatter R N wf).start j idx 0 + ((flatScatter R N wf).window j 0 : ℤ)
          ∧ (flatScatter R N wf).start j idx 0 + ((flatScatter R N wf).window j 0 : ℤ) < (R : ℤ)
        rw [hs0, hw0]; omega

/-- THE FLAT SCATTER-ADD READ AT `g`, at the ideal values: the table's entry plus the sum of the updates whose index word is `g`. -/
theorem flatScatterAdd_apply (x : FVec Ideal ⟨1, ![R]⟩ .f32) (upd : FVec Ideal ⟨1, ![N]⟩ .f32) (g : Fin R) :
    Host.scatterAdd (F := Ideal) (flatScatter R N wf) x idx upd (ix1 g)
      = x (ix1 g) + ∑ n ∈ Finset.univ.filter (fun n : Fin N => (idx (ix2 n (0 : Fin 1))).toInt = (g.val : ℤ)), upd (ix1 n) := by
  show x (ix1 g) + ∑ j ∈ Finset.univ.filter (fun j => (flatScatter R N wf).resultIdx? j idx = some (ix1 g)), upd j = _
  congr 1
  refine Finset.sum_bij (fun (j : (⟨1, ![N]⟩ : Shape).Idx) _ => (j 0 : Fin N)) ?_ ?_ ?_ ?_
  · intro j hj
    exact Finset.mem_filter.2 ⟨Finset.mem_univ _,
      (flatScatter_resultIdx?_eq_some_iff wf j idx (ix1 g)).1 (Finset.mem_filter.1 hj).2⟩
  · intro a _ b _ hab
    rw [eq_ix1 a, eq_ix1 b]
    exact congrArg ix1 hab
  · intro n hn
    exact ⟨ix1 n, Finset.mem_filter.2 ⟨Finset.mem_univ _,
      (flatScatter_resultIdx?_eq_some_iff wf (ix1 n) idx (ix1 g)).2 (Finset.mem_filter.1 hn).2⟩, rfl⟩
  · intro j _
    exact congrArg upd (eq_ix1 j)

end Flat

/-! ## The row gather -/

/-- A gather of whole rows of an `[R, C]` table, the row named by an `[N, 1]` array of words. -/
abbrev rowGather (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row a word names for a gather from `R` rows: read signed, clamped into `[0, R - 1]`. -/
def clampRow (R : Nat) (hR : 0 < R) {w : Nat} (b : BitVec w) : Fin R := ⟨min b.toInt.toNat (R - 1), by omega⟩

/-- A word that names a row for the scatter (its signed value IS the row) names the same row for the gather. -/
theorem clampRow_of_eq (hR : 0 < R) (b : BitVec w) (g : Fin R) (h : b.toInt = (g.val : ℤ)) : clampRow R hR b = g := by
  refine Fin.ext ?_
  show min b.toInt.toNat (R - 1) = g.val
  have := g.isLt
  omega

/-- THE ROW GATHER READ AT `(n, c)`: the table at row `clampRow` of the `n`-th index word, column `c`. -/
theorem rowGather_apply {α : Type} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (n : Fin N) (c : Fin C) :
    Host.gather (rowGather R C N wf) x idx (ix2 n c) = x (ix2 (clampRow R hR (idx (ix2 n (0 : Fin 1)))) c) := by
  unfold Host.gather
  congr 1
  funext a
  refine Fin.ext ?_
  match a with
  | ⟨0, _⟩ =>
    show (rowGather R C N wf).start (ix2 n c) idx 0 + (rowGather R C N wf).batchCoord (ix2 n c) 0
      + (rowGather R C N wf).offCoord (ix2 n c) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C N wf).startIndexMap from List.mem_singleton.mpr rfl)]
    have hsi : (rowGather R C N wf).siIdx (ix2 n c) ⟨List.idxOf (0 : Fin 2) (rowGather R C N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowGather R C N wf).start (ix2 n c) idx 1 + (rowGather R C N wf).batchCoord (ix2 n c) 1
      + (rowGather R C N wf).offCoord (ix2 n c) 1 = c.val
    rw [GatherDims.batchCoord_eq_zero _ _ _ List.not_mem_nil]
    unfold GatherDims.start
    rw [dif_neg (show ¬ (1 : Fin 2) ∈ (rowGather R C N wf).startIndexMap from
      (by decide : ¬ (1 : Fin 2) ∈ ([0] : List (Fin 2))))]
    unfold GatherDims.offCoord
    rw [dif_pos (show (1 : Fin 2) ∈ (rowGather R C N wf).sKept from
      (by decide : (1 : Fin 2) ∈ ([1] : List (Fin 2))))]
    simp only [Nat.zero_add, Nat.add_zero]
    rfl

/-! ## Counting on the extended reals -/

/-- A sum of copies of one extended real is the count times it — at the infinities too, and for the empty sum (`0 · v = 0`):
    a product by a nonnegative factor distributes over a sum of nonnegative terms, which is all the induction needs. -/
theorem sum_const_eq_card_mul {ι : Type} [DecidableEq ι] (s : Finset ι) (v : EReal) :
    ∑ _n ∈ s, v = (∑ _n ∈ s, (1 : EReal)) * v := by
  induction s using Finset.induction_on with
  | empty => simp
  | insert a s ha ih =>
    rw [Finset.sum_insert ha, Finset.sum_insert ha, ih,
      EReal.right_distrib_of_nonneg zero_le_one (Finset.sum_nonneg fun _ _ => zero_le_one), one_mul]

end Cert.RowIndex

end
-- ==== Proof.Spec.lean ====
/-
  The network on per-graph rows, as ONE function of the argument arrays.

  A node `n` carries a graph word `b n`. The word names graph `g` for a segment sum when its signed value IS `g`
  (`seg b g`: a word outside `[0, 512)` names no graph and its node is dropped); for a row lookup a negative word is first
  wrapped by `+512` and the result clamped into `[0, 511]` (`row b n`). Every node of `seg b g` looks up row `g`
  (`row_of_mem_seg`): this is all that the two programs need of the words, so nothing is asked of their range.

  Per graph `g`: `sums g` the sum of the node features over `seg b g`, `count g` the number of its nodes as an extended
  real, `hidden1 g = relu (sums g · W1 + b1)`, `hidden2 g = relu ((count g · hidden1 g) · W2 + b2)`,
  `logit g = hidden2 g · Wc + bc`, and the head `squash c = sp / (1 + sp)` with `sp = max c 0 + log1p (exp (-|c - 0|))`.
  The result at node `n` is `squash (logit (row b n))`.
-/
import proofs.«117735_j2241972928775_2_alg».proof.Proof.LibRowIndex
import Idealize.ShloMosaic.PureOps.Ideal.Laws
import Idealize.ShloMosaic.PureOps.IdealRules

noncomputable section

open scoped BigOperators

namespace Cert.Spec

open Idealize.ShloMosaic Idealize.ShloMosaic.ValueIdx Cert.RowIndex

/-- The two float literals both programs spell: `0.0` and `1.0`, kept as their words. -/
abbrev Z : EReal := Ideal.ofBits .f32 0x00000000#32
abbrev One : EReal := Ideal.ofBits .f32 0x3F800000#32

theorem Z_eq : Z = 0 := Ideal.ofBits_zero_f32
theorem One_eq : One = 1 := IdealRules.sign_bit.ideal_onePat .f32

/-! ## The graph words -/

/-- The word a row lookup reads: a negative word wrapped by `+512`. -/
def wrapWord (v : BitVec 32) : BitVec 32 := Scalar.select (IntOp.cmpi .slt v 0#32) (IntOp.addi v 512#32) v

theorem wrapWord_of_nonneg (v : BitVec 32) (h : 0 ≤ v.toInt) : wrapWord v = v := by
  have hs : v.slt 0#32 = false := by
    rw [BitVec.slt_eq_decide]
    simp only [BitVec.toInt_zero, decide_eq_false_iff_not, not_lt]
    exact h
  unfold wrapWord IntOp.cmpi
  simp only [hs]
  rfl

variable (b : IVec ⟨1, ![100000]⟩ 32)

/-- The nodes whose word names graph `g` for a segment sum. -/
def seg (g : Fin 512) : Finset (Fin 100000) := Finset.univ.filter fun n => (b (ix1 n)).toInt = (g.val : ℤ)

/-- The row node `n` looks up. -/
def row (n : Fin 100000) : Fin 512 := clampRow 512 (by decide) (wrapWord (b (ix1 n)))

theorem row_of_mem_seg {g : Fin 512} {n : Fin 100000} (h : n ∈ seg b g) : row b n = g := by
  have hn : (b (ix1 n)).toInt = (g.val : ℤ) := (Finset.mem_filter.1 h).2
  unfold row
  rw [wrapWord_of_nonneg _ (by omega)]
  exact clampRow_of_eq _ _ _ hn

/-! ## The tables -/

variable (x : FVec Ideal ⟨2, ![100000, 128]⟩ .f32) (W1 : FVec Ideal ⟨2, ![128, 256]⟩ .f32) (b1 : FVec Ideal ⟨1, ![256]⟩ .f32)
  (W2 : FVec Ideal ⟨2, ![256, 256]⟩ .f32) (b2 : FVec Ideal ⟨1, ![256]⟩ .f32) (Wc : FVec Ideal ⟨2, ![256, 1]⟩ .f32)
  (bc : FVec Ideal ⟨1, ![1]⟩ .f32)

def sums (g : Fin 512) (d : Fin 128) : EReal := ∑ n ∈ seg b g, x (ix2 n d)

def count (g : Fin 512) : EReal := ∑ _n ∈ seg b g, (1 : EReal)

def hidden1 (g : Fin 512) (j : Fin 256) : EReal :=
  max ((∑ d : Fin 128, sums b x g d * W1 (ix2 d j)) + b1 (ix1 j)) Z

def hidden2 (g : Fin 512) (k : Fin 256) : EReal :=
  max ((∑ j : Fin 256, (count b g * hidden1 b x W1 b1 g j) * W2 (ix2 j k)) + b2 (ix1 k)) Z

def logit (g : Fin 512) : EReal :=
  (∑ k : Fin 256, hidden2 b x W1 b1 W2 b2 g k * Wc (ix2 k (0 : Fin 1))) + bc (ix1 (0 : Fin 1))

/-- The head on one logit. -/
def squash (c : EReal) : EReal :=
  Ideal.div (max c Z + Ideal.log1p (Ideal.exp (-(max (c - Z) (-(c - Z))))))
    (One + (max c Z + Ideal.log1p (Ideal.exp (-(max (c - Z) (-(c - Z)))))))

/-- The result, node by node. -/
def result (i : (⟨2, ![100000, 1]⟩ : Shape).Idx) : EReal :=
  squash (logit b x W1 b1 W2 b2 Wc bc (row b (i 0)))

/-- The sum over a segment of copies of one value is the segment's count times it. -/
theorem sum_seg_const (g : Fin 512) (v : EReal) : ∑ _n ∈ seg b g, v = count b g * v :=
  sum_const_eq_card_mul _ v

/-- Nothing is unordered on the extended reals: the test `a ≠ a` both programs guard their head with never fires. -/
theorem cmp_one_self (a : EReal) : Ideal.cmp .one a a = 0#1 := by simp [Ideal.cmp]
theorem cmp_une_self (a : EReal) : Ideal.cmp .une a a = 0#1 := by simp [Ideal.cmp]

end Cert.Spec

end
-- ==== Proof.RefValue.lean ====
/-
  The reference, stage by stage, is the network on per-graph rows.

  Its first segment sum is `sums`; a node's gathered row is `sums (row n)`, so its first hidden row is `hidden1 (row n)`.
  The second segment sum adds, over the nodes of `seg g`, the rows `hidden1 (row n)` — all of them `hidden1 g`, since a
  node of `seg g` looks up row `g` — which is `count g · hidden1 g`. From there on each node carries its graph's row:
  `hidden2 (row n)`, `logit (row n)`, and the head of that.
-/
import proofs.«117735_j2241972928775_2_alg».proof.Proof.Gen.ReferenceIdeal.Read
import proofs.«117735_j2241972928775_2_alg».proof.Proof.Spec

noncomputable section

open scoped BigOperators

namespace Cert.RefBridge

open Cert.ReferenceIdeal Cert.ReferenceIdeal.Gen Cert.ReferenceIdeal.Read
open Idealize.ShloMosaic Idealize.ShloMosaic.ValueIdx Cert.RowIndex Cert.Spec

variable (x0 : FVec Ideal S100000x128 .f32) (x1 : IVec S100000 32) (x2 : FVec Ideal S128x256 .f32)
  (x3 : FVec Ideal S256 .f32) (x4 : FVec Ideal S256x256 .f32) (x5 : FVec Ideal S256 .f32)
  (x6 : FVec Ideal S256x1 .f32) (x7 : FVec Ideal S1 .f32)

/-! ## The index arrays -/

theorem scatterWord (n : Fin 100000) : val_main_v1 (F := Ideal) x1 (ix2 n (0 : Fin 1)) = x1 (ix1 n) := by
  rw [val_main_v1_apply]
  exact congrArg x1 (funext fun a => match a with | ⟨0, _⟩ => rfl)

theorem gatherWord (n : Fin 100000) : val_main_v8 (F := Ideal) x1 (ix2 n (0 : Fin 1)) = wrapWord (x1 (ix1 n)) := by
  rw [val_main_v8_apply, val_main_v7_apply, val_main_v4_apply, val_main_v6_apply, val_main_v3_apply, val_main_v5_apply,
    val_main_c_apply, val_main_c_0_apply]
  have e : idx_main_v8 (ix2 n (0 : Fin 1)) = ix1 n := funext fun a => match a with | ⟨0, _⟩ => rfl
  rw [e]
  rfl

/-! ## The first segment sum and its lookup -/

theorem stage_sums (g : Fin 512) (d : Fin 128) : val_main_v2 (F := Ideal) x0 x1 (ix2 g d) = sums x1 x0 g d := by
  unfold val_main_v2
  have hd : scatter_S512x128_S100000x1_S100000x128_1_0_0_1
      = rowScatter 512 128 100000 Facts₀.scatter_S512x128_S100000x1_S100000x128_1_0_0_1_wf := rfl
  rw [hd, rowScatterAdd_apply, val_main_v0_apply, val_main_cst_apply]
  show Ideal.ofBits .f32 0x00000000#32 + _ = _
  rw [Ideal.ofBits_zero_f32, zero_add]
  unfold sums seg
  simp only [scatterWord]

theorem stage_agg1 (n : Fin 100000) (d : Fin 128) :
    val_main_v9 (F := Ideal) x0 x1 (ix2 n d) = sums x1 x0 (row x1 n) d := by
  unfold val_main_v9
  have hd : gather_S512x128_S100000x1_S100000x128_1_0_n_n_0_1_1128
      = rowGather 512 128 100000 Facts₀.gather_S512x128_S100000x1_S100000x128_1_0_n_n_0_1_1128_wf := rfl
  rw [hd, rowGather_apply (by decide), gatherWord, stage_sums]
  rfl

/-! ## The first hidden layer, node by node -/

theorem stage_hidden1 (n : Fin 100000) (j : Fin 256) :
    val_main_v14 (F := Ideal) x0 x1 x2 x3 (ix2 n j) = hidden1 x1 x0 x2 x3 (row x1 n) j := by
  rw [val_main_v14_apply, val_main_v13_apply, val_main_v10_apply, val_main_v12_apply, val_main_v11_apply,
    val_main_call0_v0_apply, val_main_call0_cst_apply]
  have el : ∀ k : Fin 128, lidx_main_v10 (ix2 n j) k = ix2 n k := fun k =>
    funext fun a => match a with | ⟨0, _⟩ => rfl | ⟨1, _⟩ => rfl
  have er : ∀ k : Fin 128, ridx_main_v10 (ix2 n j) k = ix2 k j := fun k =>
    funext fun a => match a with | ⟨0, _⟩ => rfl | ⟨1, _⟩ => rfl
  have eb : idx_main_v11 (idx_main_v12 (ix2 n j)) = ix1 j := funext fun a => match a with | ⟨0, _⟩ => rfl
  simp only [el, er, eb, stage_agg1]
  rfl

/-! ## The second segment sum: a segment's rows are all its graph's row -/

theorem scatterWord' (n : Fin 100000) : val_main_v16 (F := Ideal) x1 (ix2 n (0 : Fin 1)) = x1 (ix1 n) := by
  rw [val_main_v16_apply]
  exact congrArg x1 (funext fun a => match a with | ⟨0, _⟩ => rfl)

theorem gatherWord' (n : Fin 100000) : val_main_v23 (F := Ideal) x1 (ix2 n (0 : Fin 1)) = wrapWord (x1 (ix1 n)) := by
  rw [val_main_v23_apply, val_main_v22_apply, val_main_v19_apply, val_main_v21_apply, val_main_v18_apply, val_main_v20_apply,
    val_main_c_2_apply, val_main_c_3_apply]
  have e : idx_main_v23 (ix2 n (0 : Fin 1)) = ix1 n := funext fun a => match a with | ⟨0, _⟩ => rfl
  rw [e]
  rfl

theorem stage_weighted (g : Fin 512) (j : Fin 256) :
    val_main_v17 (F := Ideal) x0 x1 x2 x3 (ix2 g j) = count x1 g * hidden1 x1 x0 x2 x3 g j := by
  unfold val_main_v17
  have hd : scatter_S512x256_S100000x1_S100000x256_1_0_0_1
      = rowScatter 512 256 100000 Facts₀.scatter_S512x256_S100000x1_S100000x256_1_0_0_1_wf := rfl
  rw [hd, rowScatterAdd_apply, val_main_v15_apply, val_main_cst_1_apply]
  show Ideal.ofBits .f32 0x00000000#32 + _ = _
  rw [Ideal.ofBits_zero_f32, zero_add]
  simp only [scatterWord', stage_hidden1]
  show ∑ n ∈ seg x1 g, hidden1 x1 x0 x2 x3 (row x1 n) j = _
  rw [← sum_seg_const]
  exact Finset.sum_congr rfl fun n hn => by rw [row_of_mem_seg x1 hn]

theorem stage_agg2 (n : Fin 100000) (j : Fin 256) :
    val_main_v24 (F := Ideal) x0 x1 x2 x3 (ix2 n j) = count x1 (row x1 n) * hidden1 x1 x0 x2 x3 (row x1 n) j := by
  unfold val_main_v24
  have hd : gather_S512x256_S100000x1_S100000x256_1_0_n_n_0_1_1256
      = rowGather 512 256 100000 Facts₀.gather_S512x256_S100000x1_S100000x256_1_0_n_n_0_1_1256_wf := rfl
  rw [hd, rowGather_apply (by decide), gatherWord', stage_weighted]
  rfl

/-! ## The second hidden layer, the logit and the head, node by node -/

theorem stage_hidden2 (n : Fin 100000) (k : Fin 256) :
    val_main_v29 (F := Ideal) x0 x1 x2 x3 x4 x5 (ix2 n k) = hidden2 x1 x0 x2 x3 x4 x5 (row x1 n) k := by
  rw [val_main_v29_apply, val_main_v28_apply, val_main_v25_apply, val_main_v27_apply, val_main_v26_apply,
    val_main_call1_v0_apply, val_main_call1_cst_apply]
  have el : ∀ j : Fin 256, lidx_main_v25 (ix2 n k) j = ix2 n j := fun j =>
    funext fun a => match a with | ⟨0, _⟩ => rfl | ⟨1, _⟩ => rfl
  have er : ∀ j : Fin 256, ridx_main_v25 (ix2 n k) j = ix2 j k := fun j =>
    funext fun a => match a with | ⟨0, _⟩ => rfl | ⟨1, _⟩ => rfl
  have eb : idx_main_v26 (idx_main_v27 (ix2 n k)) = ix1 k := funext fun a => match a with | ⟨0, _⟩ => rfl
  simp only [el, er, eb, stage_agg2]
  rfl

theorem stage_logit (n : Fin 100000) :
    val_main_v33 (F := Ideal) x0 x1 x2 x3 x4 x5 x6 x7 (ix2 n (0 : Fin 1)) = logit x1 x0 x2 x3 x4 x5 x6 x7 (row x1 n) := by
  rw [val_main_v33_apply, val_main_v30_apply, val_main_v32_apply, val_main_v31_apply]
  have el : ∀ k : Fin 256, lidx_main_v30 (ix2 n (0 : Fin 1)) k = ix2 n k := fun k =>
    funext fun a => match a with | ⟨0, _⟩ => rfl | ⟨1, _⟩ => rfl
  have er : ∀ k : Fin 256, ridx_main_v30 (ix2 n (0 : Fin 1)) k = ix2 k (0 : Fin 1) := fun k =>
    funext fun a => match a with | ⟨0, _⟩ => rfl | ⟨1, _⟩ => rfl
  have eb : idx_main_v31 (idx_main_v32 (ix2 n (0 : Fin 1))) = ix1 (0 : Fin 1) := funext fun a => match a with | ⟨0, _⟩ => rfl
  simp only [el, er, eb, stage_hidden2]
  rfl

/-- THE REFERENCE'S RESULT is the network on per-graph rows, node by node. -/
theorem reference_eq : val_main_v37 (F := Ideal) x0 x1 x2 x3 x4 x5 x6 x7 = result x1 x0 x2 x3 x4 x5 x6 x7 := by
  funext i
  obtain ⟨n, q, rfl⟩ : ∃ (n : Fin 100000) (q : Fin 1), i = ix2 n q := ⟨i 0, i 1, eq_ix2 i⟩
  obtain rfl : q = 0 := Subsingleton.elim _ _
  rw [val_main_v37_apply, val_main_v36_apply, val_main_v35_apply, val_main_cst_4_apply, val_main_v34_apply,
    val_main_call2_v4_apply, val_main_call2_v6_apply, val_main_call2_v11_apply, val_main_call2_v1_apply,
    val_main_call2_v10_apply, val_main_call2_v9_apply, val_main_call2_v8_apply, val_main_call2_v7_apply,
    val_main_call2_v3_apply, val_main_call2_v0_apply, val_main_call2_v2_apply, val_main_call2_v5_apply,
    val_main_call2_cst_apply, stage_logit]
  show _ = squash (logit x1 x0 x2 x3 x4 x5 x6 x7 (row x1 n))
  generalize logit x1 x0 x2 x3 x4 x5 x6 x7 (row x1 n) = c
  rw [show FloatOps.cmpf (F := Ideal) (φ := .f32) CmpFPredicate.une (FloatOps.subf c (FloatOps.ofBits .f32 0#32))
      (FloatOps.subf c (FloatOps.ofBits .f32 0#32)) = 0#1 from cmp_une_self _, select_zero]
  rfl

end Cert.RefBridge

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelPayload.lean ====
/-
  The kernel body's arithmetic, read row by row.

  The body computes, on the 512 per-graph rows it is handed (`X0` the summed features, `X1` the counts as a column, the
  weights, and the biases as rows), `relu (X0 · X2 + X3)`, then `relu ((X1 · that) · X4 + X5)`, then the lane sum of the
  product with the row `X6`, plus `X7`; the head is applied to that. Each matrix product into a zero accumulator is a plain
  sum over the contracted coordinate, each bias row is broadcast over the rows, the count column over the lanes; a change
  of float format is the identity here.
-/
import proofs.«117735_j2241972928775_2_alg».proof.Proof.Gen.KernelIdeal.Skeleton
import proofs.«117735_j2241972928775_2_alg».proof.Proof.Spec
import proofs.«117735_j2241972928775_2_alg».proof.Proof.LibColumnLayout
import Idealize.ShloMosaic.Lib.ValueLayout
import Idealize.ShloMosaic.Lib.Pipeline.Value
import Idealize.ShloMosaic.PureOps.Ideal.Laws

noncomputable section

open scoped BigOperators

namespace Cert.KernelBridge

open Cert.KernelIdeal Cert.KernelIdeal.Gen
open Idealize.ShloMosaic Idealize.ShloMosaic.ValueIdx Cert.Spec Cert.ColumnLayout

/-! ## The two matrix products at an index -/

theorem lhsA_0 (i : S512x256.Idx) (q : dot_S512x128_S128x256_S512x256_1_0_0_1_n_n.contr.Idx) :
    (dot_S512x128_S128x256_S512x256_1_0_0_1_n_n.lhsIdx i q 0).val = (i 0).val := by
  unfold DotDims.lhsIdx
  rw [dif_neg (show ¬(0 : Fin S512x128.rank) ∈ dot_S512x128_S128x256_S512x256_1_0_0_1_n_n.lhsBatch by decide),
    dif_pos (show (0 : Fin S512x128.rank) ∈ dot_S512x128_S128x256_S512x256_1_0_0_1_n_n.lhsNonContracting by decide)]
  rfl
theorem lhsA_1 (i : S512x256.Idx) (q : dot_S512x128_S128x256_S512x256_1_0_0_1_n_n.contr.Idx) :
    (dot_S512x128_S128x256_S512x256_1_0_0_1_n_n.lhsIdx i q 1).val = (q ⟨0, by decide⟩).val :=
  dot_S512x128_S128x256_S512x256_1_0_0_1_n_n.lhsIdx_val_of_single rfl i q
theorem rhsA_0 (i : S512x256.Idx) (q : dot_S512x128_S128x256_S512x256_1_0_0_1_n_n.contr.Idx) :
    (dot_S512x128_S128x256_S512x256_1_0_0_1_n_n.rhsIdx i q 0).val = (q ⟨0, by decide⟩).val :=
  dot_S512x128_S128x256_S512x256_1_0_0_1_n_n.rhsIdx_val_of_single rfl i q
theorem rhsA_1 (i : S512x256.Idx) (q : dot_S512x128_S128x256_S512x256_1_0_0_1_n_n.contr.Idx) :
    (dot_S512x128_S128x256_S512x256_1_0_0_1_n_n.rhsIdx i q 1).val = (i 1).val := by
  unfold DotDims.rhsIdx
  rw [dif_neg (show ¬(1 : Fin S128x256.rank) ∈ dot_S512x128_S128x256_S512x256_1_0_0_1_n_n.rhsBatch by decide),
    dif_pos (show (1 : Fin S128x256.rank) ∈ dot_S512x128_S128x256_S512x256_1_0_0_1_n_n.rhsNonContracting by decide)]
  rfl

/-- The first product, into the zero accumulator, at `(g, j)`: the sum over the 128 features. -/
theorem productA_apply (L : FVec Ideal S512x128 .bf16) (R : FVec Ideal S128x256 .bf16) (g : Fin 512) (j : Fin 256) :
    matmul dot_S512x128_S128x256_S512x256_1_0_0_1_n_n none L R (constant (F := Ideal) S512x256 .f32 0x00000000#32) (ix2 g j)
      = ∑ d : Fin 128, L (ix2 g d) * R (ix2 d j) := by
  refine (Ideal.matmul_constant_zero_apply dot_S512x128_S128x256_S512x256_1_0_0_1_n_n none L R (ix2 g j)).trans ?_
  rw [← Equiv.sum_comp (contrEquiv1 dot_S512x128_S128x256_S512x256_1_0_0_1_n_n 128 rfl rfl).symm]
  refine Finset.sum_congr rfl fun k _ => ?_
  have hk := contrEquiv1_symm_val dot_S512x128_S128x256_S512x256_1_0_0_1_n_n 128 rfl rfl k
  have el : dot_S512x128_S128x256_S512x256_1_0_0_1_n_n.lhsIdx (ix2 g j)
      ((contrEquiv1 dot_S512x128_S128x256_S512x256_1_0_0_1_n_n 128 rfl rfl).symm k) = ix2 g k := funext fun a => Fin.ext (by
    match a with
    | ⟨0, _⟩ => exact lhsA_0 _ _
    | ⟨1, _⟩ => exact (lhsA_1 _ _).trans hk)
  have er : dot_S512x128_S128x256_S512x256_1_0_0_1_n_n.rhsIdx (ix2 g j)
      ((contrEquiv1 dot_S512x128_S128x256_S512x256_1_0_0_1_n_n 128 rfl rfl).symm k) = ix2 k j := funext fun a => Fin.ext (by
    match a with
    | ⟨0, _⟩ => exact (rhsA_0 _ _).trans hk
    | ⟨1, _⟩ => exact rhsA_1 _ _)
  rw [el, er]

theorem lhsB_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl
theorem lhsB_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhsB_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhsB_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

/-- The second product, into the zero accumulator, at `(g, k)`: the sum over the 256 hidden units. -/
theorem productB_apply (L : FVec Ideal S512x256 .bf16) (R : FVec Ideal S256x256 .bf16) (g : Fin 512) (k : Fin 256) :
    matmul dot_S512x256_S256x256_S512x256_1_0_0_1_n_n none L R (constant (F := Ideal) S512x256 .f32 0x00000000#32) (ix2 g k)
      = ∑ j : Fin 256, L (ix2 g j) * R (ix2 j k) := by
  refine (Ideal.matmul_constant_zero_apply dot_S512x256_S256x256_S512x256_1_0_0_1_n_n none L R (ix2 g k)).trans ?_
  rw [← Equiv.sum_comp (contrEquiv1 dot_S512x256_S256x256_S512x256_1_0_0_1_n_n 256 rfl rfl).symm]
  refine Finset.sum_congr rfl fun j _ => ?_
  have hj := contrEquiv1_symm_val dot_S512x256_S256x256_S512x256_1_0_0_1_n_n 256 rfl rfl j
  have el : dot_S512x256_S256x256_S512x256_1_0_0_1_n_n.lhsIdx (ix2 g k)
      ((contrEquiv1 dot_S512x256_S256x256_S512x256_1_0_0_1_n_n 256 rfl rfl).symm j) = ix2 g j := funext fun a => Fin.ext (by
    match a with
    | ⟨0, _⟩ => exact lhsB_0 _ _
    | ⟨1, _⟩ => exact (lhsB_1 _ _).trans hj)
  have er : dot_S512x256_S256x256_S512x256_1_0_0_1_n_n.rhsIdx (ix2 g k)
      ((contrEquiv1 dot_S512x256_S256x256_S512x256_1_0_0_1_n_n 256 rfl rfl).symm j) = ix2 j k := funext fun a => Fin.ext (by
    match a with
    | ⟨0, _⟩ => exact (rhsB_0 _ _).trans hj
    | ⟨1, _⟩ => exact rhsB_1 _ _)
  rw [el, er]

/-! ## The body's three layers -/

variable (X0 : FVec Ideal S512x128 .f32) (X1 : FVec Ideal S512x1 .f32) (X2 : FVec Ideal S128x256 .f32)
  (X3 : FVec Ideal S1x256 .f32) (X4 : FVec Ideal S256x256 .f32) (X5 : FVec Ideal S1x256 .f32)
  (X6 : FVec Ideal S1x256 .f32) (X7 : FVec Ideal S1x1 .f32)

/-- `relu (X0 · X2 + X3)`. -/
def layer1 : FVec Ideal S512x256 .f32 :=
  maximumf (addf (matmul dot_S512x128_S128x256_S512x256_1_0_0_1_n_n none
      (truncf .bf16 (shapeCast S512x128 X0 shapeCasts_S512x128_S512x128) bitsLt_bf16_f32) (truncf .bf16 X2 bitsLt_bf16_f32)
      (constant S512x256 .f32 0x00000000#32))
    (broadcastTo S512x256 (shapeCast S1x256 X3 shapeCasts_S1x256_S1x256) broadcasts_S1x256_S512x256))
    (broadcast S512x256 (Scalar.ofBits .f32 0x00000000#32))

/-- `relu ((X1 · H1) · X4 + X5)`, the count column `X1` broadcast over the lanes. -/
def layer2 (H1 : FVec Ideal S512x256 .f32) : FVec Ideal S512x256 .f32 :=
  maximumf (addf (matmul dot_S512x256_S256x256_S512x256_1_0_0_1_n_n none
      (truncf .bf16 (mulf (broadcastTo S512x256 (shapeCast S512x1 X1 shapeCasts_S512x1_S512x1) broadcasts_S512x1_S512x256) H1)
        bitsLt_bf16_f32)
      (truncf .bf16 X4 bitsLt_bf16_f32) (constant S512x256 .f32 0x00000000#32))
    (broadcastTo S512x256 (shapeCast S1x256 X5 shapeCasts_S1x256_S1x256) broadcasts_S1x256_S512x256))
    (broadcast S512x256 (Scalar.ofBits .f32 0x00000000#32))

/-- The lane sum of `H2` times the row `X6`, as a column, plus `X7`. -/
def layer3 (H2 : FVec Ideal S512x256 .f32) : FVec Ideal S512x1 .f32 :=
  addf (shapeCast S512x1 (multiReduction .add [1] S512
      (mulf H2 (broadcastTo S512x256 (shapeCast S1x256 X6 shapeCasts_S1x256_S1x256) broadcasts_S1x256_S512x256))
      0x00000000#32 reduces_S512x256_S512 (.inl rfl) rfl) shapeCasts_S512_S512x1)
    (broadcastTo S512x1 (shapeCast S1x1 X7 shapeCasts_S1x1_S1x1) broadcasts_S1x1_S512x1)

/-- The body's logit payload is the three layers composed. -/
theorem logitPayload_eq :
    k0_pay2 (F := Ideal) X0 X2 X3 X1 X4 X5 X6 X7 = layer3 X6 X7 (layer2 X1 X4 X5 (layer1 X0 X2 X3)) := rfl

theorem layer1_apply (g : Fin 512) (j : Fin 256) :
    layer1 X0 X2 X3 (ix2 g j) = max ((∑ d : Fin 128, X0 (ix2 g d) * X2 (ix2 d j)) + X3 (ix2 (0 : Fin 1) j)) Z := by
  unfold layer1
  show max (matmul _ none _ _ _ (ix2 g j) + broadcastTo S512x256 _ _ (ix2 g j)) Z = _
  rw [productA_apply, broadcastTo_1b_ab_apply]
  simp only [shapeCast_self]
  rfl

theorem layer2_apply (H1 : FVec Ideal S512x256 .f32) (g : Fin 512) (k : Fin 256) :
    layer2 X1 X4 X5 H1 (ix2 g k)
      = max ((∑ j : Fin 256, (X1 (ix2 g (0 : Fin 1)) * H1 (ix2 g j)) * X4 (ix2 j k)) + X5 (ix2 (0 : Fin 1) k)) Z := by
  unfold layer2
  show max (matmul _ none _ _ _ (ix2 g k) + broadcastTo S512x256 _ _ (ix2 g k)) Z = _
  rw [productB_apply, broadcastTo_1b_ab_apply]
  simp only [shapeCast_self]
  refine congrArg (fun s => max (s + X5 (ix2 (0 : Fin 1) k)) Z) (Finset.sum_congr rfl fun j _ => ?_)
  show (broadcastTo S512x256 X1 broadcasts_S512x1_S512x256 (ix2 g j) * H1 (ix2 g j)) * X4 (ix2 j k) = _
  rw [broadcastTo_a1_ab_apply]

/-- The lane sum of a `[512, 256]` vector at row `g`: the sum over the 256 lanes. -/
theorem laneSum_apply (P : FVec Ideal S512x256 .f32) (g : Fin 512) :
    multiReduction .add [1] S512 P 0x00000000#32 reduces_S512x256_S512 (.inl rfl) rfl (ix1 g) = ∑ k : Fin 256, P (ix2 g k) := by
  refine (Ideal.multiReduction_add_single P 0x00000000#32 reduces_S512x256_S512 (.inl rfl) rfl (ix1 g)).trans ?_
  refine Finset.sum_congr rfl fun k _ => ?_
  exact congrArg P (funext fun a => Fin.ext (by match a with | ⟨0, _⟩ => rfl | ⟨1, _⟩ => rfl))

theorem layer3_apply (H2 : FVec Ideal S512x256 .f32) (g : Fin 512) (u : Fin 1) :
    layer3 X6 X7 H2 (ix2 g u) = (∑ k : Fin 256, H2 (ix2 g k) * X6 (ix2 (0 : Fin 1) k)) + X7 (ix2 (0 : Fin 1) u) := by
  unfold layer3
  show shapeCast S512x1 _ _ (ix2 g u) + broadcastTo S512x1 _ _ (ix2 g u) = _
  rw [shapeCast_a_a1_apply, broadcastTo_1b_ab_apply]
  simp only [shapeCast_self]
  refine congrArg (· + X7 (ix2 (0 : Fin 1) u)) ((laneSum_apply _ g).trans ?_)
  refine Finset.sum_congr rfl fun k _ => ?_
  show H2 (ix2 g k) * broadcastTo S512x256 X6 broadcasts_S1x256_S512x256 (ix2 g k) = _
  rw [broadcastTo_1b_ab_apply]

/-! ## The head -/

theorem head_apply (v : FVec Ideal S512x1 .f32) (i : S512x1.Idx) :
    k0_pay1 (F := Ideal) v (Scalar.ofBits .f32 0x00000000#32) k0_pay3 i = squash (v i) := by
  unfold k0_pay1 k0_pay3
  dsimp only
  show Ideal.div (Scalar.select (Ideal.cmp .one (v i - Z) (v i - Z)) (v i + Z)
        (max (v i) Z + Ideal.log1p (Ideal.exp (Z - max (v i - Z) (-(v i - Z))))))
      (Cert.Spec.One + Scalar.select (Ideal.cmp .one (v i - Z) (v i - Z)) (v i + Z)
        (max (v i) Z + Ideal.log1p (Ideal.exp (Z - max (v i - Z) (-(v i - Z)))))) = _
  rw [cmp_one_self, select_zero,
    show (Z - max (v i - Z) (-(v i - Z)) : EReal) = -(max (v i - Z) (-(v i - Z))) from by rw [Z_eq, zero_sub]]
  rfl

/-- THE BODY AT ROW `g`: the head of the logit its three layers compute from the row's entries. -/
theorem body_apply (g : Fin 512) (u : Fin 1) :
    k0_pay1 (F := Ideal) (k0_pay2 X0 X2 X3 X1 X4 X5 X6 X7) (Scalar.ofBits .f32 0x00000000#32) k0_pay3 (ix2 g u)
      = squash ((∑ k : Fin 256,
          max ((∑ j : Fin 256, (X1 (ix2 g (0 : Fin 1))
              * max ((∑ d : Fin 128, X0 (ix2 g d) * X2 (ix2 d j)) + X3 (ix2 (0 : Fin 1) j)) Z) * X4 (ix2 j k))
            + X5 (ix2 (0 : Fin 1) k)) Z * X6 (ix2 (0 : Fin 1) k)) + X7 (ix2 (0 : Fin 1) u)) := by
  rw [head_apply, logitPayload_eq, layer3_apply]
  simp only [layer2_apply, layer1_apply]

end Cert.KernelBridge

end
-- ==== Proof.KernelValue.lean ====
/-
  The kernel's run, read back.

  Before the region the host computes the per-graph tables the body is handed: the segment sums of the features
  (`sums`), the segment counts as a column (`count`), and the biases and the head's weights re-laid as rows. The region
  has one grid point and every window's block is its whole array, so the body's result is the whole output table:
  row `g` holds the head of `logit g`. After the region the host looks a row of that table up for every node.
-/
import proofs.«117735_j2241972928775_2_alg».proof.Proof.Gen.KernelIdeal.Frame
import proofs.«117735_j2241972928775_2_alg».proof.Proof.KernelPayload
import Idealize.ShloMosaic.Lib.StableHlo.Run
import Idealize.ShloMosaic.Lib.Pipeline.Value
import Idealize.ShloMosaic.Lib.ValueLayout

set_option maxRecDepth 16384

noncomputable section

open scoped BigOperators

namespace Cert.KernelBridge

open Cert.KernelIdeal Cert.KernelIdeal.Gen
open Idealize.ShloMosaic Idealize.ShloMosaic.TcCoe Idealize.SL.Sem Idealize.ShloMosaic.StableHlo
open Idealize.ShloMosaic.ValueIdx Cert.RowIndex Cert.Spec Cert.ColumnLayout

variable (m : (ℓ : Loc nD τ sig) → Buf (Elt Ideal) ℓ) (ρ : Dev nD → PrngReg) (c : Dev nD)

/-! ## The arguments as launched -/

abbrev argX : FVec Ideal S100000x128 .f32 := m ((c.tc : Thread nD τ).loc main_arg0)
abbrev argB : IVec S100000 32 := m ((c.tc : Thread nD τ).loc main_arg1)
abbrev argW1 : FVec Ideal S128x256 .f32 := m ((c.tc : Thread nD τ).loc main_arg2)
abbrev argB1 : FVec Ideal S256 .f32 := m ((c.tc : Thread nD τ).loc main_arg3)
abbrev argW2 : FVec Ideal S256x256 .f32 := m ((c.tc : Thread nD τ).loc main_arg4)
abbrev argB2 : FVec Ideal S256 .f32 := m ((c.tc : Thread nD τ).loc main_arg5)
abbrev argWc : FVec Ideal S256x1 .f32 := m ((c.tc : Thread nD τ).loc main_arg6)
abbrev argBc : FVec Ideal S1 .f32 := m ((c.tc : Thread nD τ).loc main_arg7)

/-! ## Two host layouts read at an index -/

/-- The node words as an `[N, 1]` column. -/
theorem wordColumn_apply (b : IVec S100000 32) (n : Fin 100000) :
    broadcastInDim S100000x1 ![0] bcast_S100000_S100000x1_0 b (ix2 n (0 : Fin 1)) = b (ix1 n) :=
  broadcastInDim_apply _ bcast_S100000_S100000x1_0 b (ix2 n (0 : Fin 1)) (ix1 n) (fun a => match a with
    | ⟨0, _⟩ => by show n.val = if (100000 : Nat) = 1 then 0 else n.val; rw [if_neg (by decide)])

/-- A scalar literal splat over any shape. -/
theorem splat_apply {s : Shape} (h : S_.BroadcastsInDim s ![]) (w : BitVec 32) (i : s.Idx) :
    broadcastInDim s ![] h (constant (F := Ideal) S_ .f32 w) i = Ideal.ofBits .f32 w :=
  broadcastInDim_apply _ h _ i (fun a => a.elim0) (fun a => a.elim0)

/-! ## The tables the region is handed -/

theorem entry_sums (g : Fin 512) (d : Fin 128) :
    @Eq EReal ((V m c main_v2 : FVec Ideal S512x128 .f32) (ix2 g d)) (sums (argB m c) (argX m c) g d) := by
  have e : (V m c main_v2 : FVec Ideal S512x128 .f32) = Host.scatterAdd scatter_S512x128_S100000x1_S100000x128_1_0_0_1
      (broadcastInDim S512x128 ![] bcast_S_S512x128 (constant (F := Ideal) S_ .f32 0x00000000#32))
      (broadcastInDim S100000x1 ![0] bcast_S100000_S100000x1_0 (argB m c)) (argX m c) := by
    show StableHlo.after hostOps0 (fun b => m (c, b)) (Proc.devRef .tc main_v2) = _
    after_results <;> rfl
  have hd : scatter_S512x128_S100000x1_S100000x128_1_0_0_1
      = rowScatter 512 128 100000 scatter_S512x128_S100000x1_S100000x128_1_0_0_1_wf := rfl
  rw [e, hd, rowScatterAdd_apply, splat_apply, Ideal.ofBits_zero_f32, zero_add]
  unfold sums seg
  exact Finset.sum_congr (Finset.filter_congr fun n _ => by rw [wordColumn_apply]) fun _ _ => rfl

theorem entry_count (g : Fin 512) (u : Fin 1) :
    @Eq EReal ((V m c main_v7 : FVec Ideal S512x1 .f32) (ix2 g u)) (Spec.count (argB m c) g) := by
  have e : (V m c main_v7 : FVec Ideal S512x1 .f32) = shapeCast S512x1 (Host.scatterAdd scatter_S512_S100000x1_S100000_n_0_0_1
      (broadcastInDim S512 ![] bcast_S_S512 (constant (F := Ideal) S_ .f32 0x00000000#32))
      (broadcastInDim S100000x1 ![0] bcast_S100000_S100000x1_0 (argB m c))
      (broadcastInDim S100000 ![] bcast_S_S100000 (constant (F := Ideal) S_ .f32 0x3F800000#32))) shapeCasts_S512_S512x1 := by
    show StableHlo.after hostOps0 (fun b => m (c, b)) (Proc.devRef .tc main_v7) = _
    after_results <;> rfl
  have hd : scatter_S512_S100000x1_S100000_n_0_0_1
      = flatScatter 512 100000 scatter_S512_S100000x1_S100000_n_0_0_1_wf := rfl
  rw [e, shapeCast_a_a1_apply, hd, flatScatterAdd_apply, splat_apply, Ideal.ofBits_zero_f32, zero_add]
  unfold Spec.count seg
  exact Finset.sum_congr (Finset.filter_congr fun n _ => by rw [wordColumn_apply]) fun n _ =>
    (splat_apply _ _ _).trans One_eq

theorem entry_bias1 (u : Fin 1) (j : Fin 256) :
    @Eq EReal ((V m c main_v8 : FVec Ideal S1x256 .f32) (ix2 u j)) (argB1 m c (ix1 j)) := by
  have e : (V m c main_v8 : FVec Ideal S1x256 .f32) = shapeCast S1x256 (argB1 m c) shapeCasts_S256_S1x256 := by
    show StableHlo.after hostOps0 (fun b => m (c, b)) (Proc.devRef .tc main_v8) = _
    after_results <;> rfl
  rw [e, shapeCast_a_1a_apply]

theorem entry_bias2 (u : Fin 1) (k : Fin 256) :
    @Eq EReal ((V m c main_v9 : FVec Ideal S1x256 .f32) (ix2 u k)) (argB2 m c (ix1 k)) := by
  have e : (V m c main_v9 : FVec Ideal S1x256 .f32) = shapeCast S1x256 (argB2 m c) shapeCasts_S256_S1x256 := by
    show StableHlo.after hostOps0 (fun b => m (c, b)) (Proc.devRef .tc main_v9) = _
    after_results <;> rfl
  rw [e, shapeCast_a_1a_apply]

theorem entry_headRow (u : Fin 1) (k : Fin 256) :
    @Eq EReal ((V m c main_v10 : FVec Ideal S1x256 .f32) (ix2 u k)) (argWc m c (ix2 k (0 : Fin 1))) := by
  have e : (V m c main_v10 : FVec Ideal S1x256 .f32) = shapeCast S1x256 (argWc m c) shapeCasts_S256x1_S1x256 := by
    show StableHlo.after hostOps0 (fun b => m (c, b)) (Proc.devRef .tc main_v10) = _
    after_results <;> rfl
  rw [e, shapeCast_a1_1a_apply]

theorem entry_headBias (u v : Fin 1) :
    @Eq EReal ((V m c main_v11 : FVec Ideal S1x1 .f32) (ix2 u v)) (argBc m c (ix1 v)) := by
  have e : (V m c main_v11 : FVec Ideal S1x1 .f32) = shapeCast S1x1 (argBc m c) shapeCasts_S1_S1x1 := by
    show StableHlo.after hostOps0 (fun b => m (c, b)) (Proc.devRef .tc main_v11) = _
    after_results <;> rfl
  rw [e, shapeCast_a_1a_apply]

/-- The same six tables as whole arrays. -/
theorem arr_sums : (V m c main_v2 : FVec Ideal S512x128 .f32) = fun i => sums (argB m c) (argX m c) (i 0) (i 1) := by
  funext i
  obtain ⟨g, d, rfl⟩ : ∃ (g : Fin 512) (d : Fin 128), i = ix2 g d := ⟨i 0, i 1, eq_ix2 i⟩
  exact entry_sums m c g d
theorem arr_count : (V m c main_v7 : FVec Ideal S512x1 .f32) = fun i => Spec.count (argB m c) (i 0) := by
  funext i
  obtain ⟨g, u, rfl⟩ : ∃ (g : Fin 512) (u : Fin 1), i = ix2 g u := ⟨i 0, i 1, eq_ix2 i⟩
  exact entry_count m c g u
theorem arr_bias1 : (V m c main_v8 : FVec Ideal S1x256 .f32) = fun i => argB1 m c (ix1 (i 1)) := by
  funext i
  obtain ⟨u, j, rfl⟩ : ∃ (u : Fin 1) (j : Fin 256), i = ix2 u j := ⟨i 0, i 1, eq_ix2 i⟩
  exact entry_bias1 m c u j
theorem arr_bias2 : (V m c main_v9 : FVec Ideal S1x256 .f32) = fun i => argB2 m c (ix1 (i 1)) := by
  funext i
  obtain ⟨u, j, rfl⟩ : ∃ (u : Fin 1) (j : Fin 256), i = ix2 u j := ⟨i 0, i 1, eq_ix2 i⟩
  exact entry_bias2 m c u j
theorem arr_headRow : (V m c main_v10 : FVec Ideal S1x256 .f32) = fun i => argWc m c (ix2 (i 1) (0 : Fin 1)) := by
  funext i
  obtain ⟨u, j, rfl⟩ : ∃ (u : Fin 1) (j : Fin 256), i = ix2 u j := ⟨i 0, i 1, eq_ix2 i⟩
  exact entry_headRow m c u j
theorem arr_headBias : (V m c main_v11 : FVec Ideal S1x1 .f32) = fun i => argBc m c (ix1 (i 1)) := by
  funext i
  obtain ⟨u, v, rfl⟩ : ∃ (u : Fin 1) (v : Fin 1), i = ix2 u v := ⟨i 0, i 1, eq_ix2 i⟩
  exact entry_headBias m c u v

/-! ## Every window's block is its whole array -/

/-- The printed index maps send the one grid point to block `(0, 0)` of every window. -/
theorem index_zero : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem emb0 (t : Fin cfg0.N) (y : S512x128.Idx) : ((cfg0.win 0).blk t).view.emb y = y := by
  obtain ⟨⟨h0, h1⟩, -⟩ := index_zero t
  funext a; apply Fin.ext
  match a with
  | ⟨0, _⟩ => show win0_0.index t (0 : Fin 2) * 512 + 1 * (y 0).val = (y 0).val; omega
  | ⟨1, _⟩ => show win0_0.index t (1 : Fin 2) * 128 + 1 * (y 1).val = (y 1).val; omega

theorem emb1 (t : Fin cfg0.N) (y : S512x1.Idx) : ((cfg0.win 1).blk t).view.emb y = y := by
  obtain ⟨-, ⟨h0, h1⟩, -⟩ := index_zero t
  funext a; apply Fin.ext
  match a with
  | ⟨0, _⟩ => show win0_1.index t (0 : Fin 2) * 512 + 1 * (y 0).val = (y 0).val; omega
  | ⟨1, _⟩ => show win0_1.index t (1 : Fin 2) * 1 + 1 * (y 1).val = (y 1).val; omega

theorem emb2 (t : Fin cfg0.N) (y : S128x256.Idx) : ((cfg0.win 2).blk t).view.emb y = y := by
  obtain ⟨-, -, ⟨h0, h1⟩, -⟩ := index_zero t
  funext a; apply Fin.ext
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem emb3 (t : Fin cfg0.N) (y : S1x256.Idx) : ((cfg0.win 3).blk t).view.emb y = y := by
  obtain ⟨-, -, -, ⟨h0, h1⟩, -⟩ := index_zero t
  funext a; apply Fin.ext
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem emb4 (t : Fin cfg0.N) (y : S256x256.Idx) : ((cfg0.win 4).blk t).view.emb y = y := by
  obtain ⟨-, -, -, -, ⟨h0, h1⟩, -⟩ := index_zero t
  funext a; apply Fin.ext
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem emb5 (t : Fin cfg0.N) (y : S1x256.Idx) : ((cfg0.win 5).blk t).view.emb y = y := by
  obtain ⟨-, -, -, -, -, ⟨h0, h1⟩, -⟩ := index_zero t
  funext a; apply Fin.ext
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem emb6 (t : Fin cfg0.N) (y : S1x256.Idx) : ((cfg0.win 6).blk t).view.emb y = y := by
  obtain ⟨-, -, -, -, -, -, ⟨h0, h1⟩, -⟩ := index_zero t
  funext a; apply Fin.ext
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem emb7 (t : Fin cfg0.N) (y : S1x1.Idx) : ((cfg0.win 7).blk t).view.emb y = y := by
  obtain ⟨-, -, -, -, -, -, -, ⟨h0, h1⟩, -⟩ := index_zero t
  funext a; apply Fin.ext
  match a with
  | ⟨0, _⟩ => show win0_7.index t (0 : Fin 2) * 1 + 1 * (y 0).val = (y 0).val; omega
  | ⟨1, _⟩ => show win0_7.index t (1 : Fin 2) * 1 + 1 * (y 1).val = (y 1).val; omega

theorem emb8 (t : Fin cfg0.N) (y : S512x1.Idx) : ((cfg0.win 8).blk t).view.emb y = y := by
  obtain ⟨-, -, -, -, -, -, -, -, h0, h1⟩ := index_zero t
  funext a; apply Fin.ext
  match a with
  | ⟨0, _⟩ => show win0_8.index t (0 : Fin 2) * 512 + 1 * (y 0).val = (y 0).val; omega
  | ⟨1, _⟩ => show win0_8.index t (1 : Fin 2) * 1 + 1 * (y 1).val = (y 1).val; omega

/-- So each input block IS its array as the region finds it. -/
theorem block0 (t : Fin cfg0.N) : (iblk m c 0 t : FVec Ideal S512x128 .f32) = V m c main_v2 := by
  funext y
  show V m c main_v2 (((cfg0.win 0).blk t).view.emb y) = V m c main_v2 y
  rw [emb0 t y]
theorem block1 (t : Fin cfg0.N) : (iblk m c 1 t : FVec Ideal S512x1 .f32) = V m c main_v7 := by
  funext y
  show V m c main_v7 (((cfg0.win 1).blk t).view.emb y) = V m c main_v7 y
  rw [emb1 t y]
theorem block2 (t : Fin cfg0.N) : (iblk m c 2 t : FVec Ideal S128x256 .f32) = argW1 m c := by
  funext y
  show V m c main_arg2 (((cfg0.win 2).blk t).view.emb y) = argW1 m c y
  rw [emb2 t y, V_main_arg2 m c]
theorem block3 (t : Fin cfg0.N) : (iblk m c 3 t : FVec Ideal S1x256 .f32) = V m c main_v8 := by
  funext y
  show V m c main_v8 (((cfg0.win 3).blk t).view.emb y) = V m c main_v8 y
  rw [emb3 t y]
theorem block4 (t : Fin cfg0.N) : (iblk m c 4 t : FVec Ideal S256x256 .f32) = argW2 m c := by
  funext y
  show V m c main_arg4 (((cfg0.win 4).blk t).view.emb y) = argW2 m c y
  rw [emb4 t y, V_main_arg4 m c]
theorem block5 (t : Fin cfg0.N) : (iblk m c 5 t : FVec Ideal S1x256 .f32) = V m c main_v9 := by
  funext y
  show V m c main_v9 (((cfg0.win 5).blk t).view.emb y) = V m c main_v9 y
  rw [emb5 t y]
theorem block6 (t : Fin cfg0.N) : (iblk m c 6 t : FVec Ideal S1x256 .f32) = V m c main_v10 := by
  funext y
  show V m c main_v10 (((cfg0.win 6).blk t).view.emb y) = V m c main_v10 y
  rw [emb6 t y]
theorem block7 (t : Fin cfg0.N) : (iblk m c 7 t : FVec Ideal S1x1 .f32) = V m c main_v11 := by
  funext y
  show V m c main_v11 (((cfg0.win 7).blk t).view.emb y) = V m c main_v11 y
  rw [emb7 t y]

/-! ## The output table -/

theorem zeros2 : (![0, 0] : Fin 2 → Nat) = fun _ => 0 := funext fun a => by fin_cases a <;> rfl

/-- Row `g` of the output table: the head of graph `g`'s logit. -/
def table : FVec Ideal S512x1 .f32 := fun i =>
  squash (logit (argB m c) (argX m c) (argW1 m c) (argB1 m c) (argW2 m c) (argB2 m c) (argWc m c) (argBc m c) (i 0))

/-- What the body leaves in the output's buffer, from the blocks it is handed, is the whole table. -/
theorem body_out (t : Fin cfg0.N) :
    out0_8 (iblk m c 0 t) (iblk m c 1 t) (iblk m c 2 t) (iblk m c 3 t) (iblk m c 4 t) (iblk m c 5 t) (iblk m c 6 t)
      (iblk m c 7 t) = table m c := by
  unfold out0_8
  rw [View.canon_unit_zero zeros2]
  simp only [View.ld_unit_zero (S := S512x128) zeros2, View.ld_unit_zero (S := S128x256) zeros2,
    View.ld_unit_zero (S := S1x256) zeros2, View.ld_unit_zero (S := S512x1) zeros2,
    View.ld_unit_zero (S := S256x256) zeros2, View.ld_unit_zero (S := S1x1) zeros2]
  funext y
  obtain ⟨g, u, rfl⟩ : ∃ (g : Fin 512) (u : Fin 1), y = ix2 g u := ⟨y 0, y 1, eq_ix2 y⟩
  obtain rfl : u = 0 := Subsingleton.elim _ _
  refine (body_apply (iblk m c 0 t) (iblk m c 1 t) (iblk m c 2 t) (iblk m c 3 t) (iblk m c 4 t) (iblk m c 5 t)
    (iblk m c 6 t) (iblk m c 7 t) g 0).trans ?_
  rw [block0 m c t, block1 m c t, block2 m c t, block3 m c t, block4 m c t, block5 m c t, block6 m c t, block7 m c t,
    arr_sums m c, arr_count m c, arr_bias1 m c, arr_bias2 m c, arr_headRow m c, arr_headBias m c]
  rfl

/-- WHAT THE ONE POINT WRITES BACK is the whole table: block `(0, 0)` of the output, read through zero offsets, is the
    output. -/
theorem flushed_eq (t : Fin cfg0.N) :
    (dats m 0 c).flushed 8 t = ((cfg0.win 8).blk t).view.read (Elt Ideal) (table m c) := by
  obtain rfl : t = t0_0 := fin_N0 t
  show (cfg0.win 8).cut (grid0.coords t0_0) ((dats m 0 c).after 8 t0_0) = _
  rw [after0_8, body_out m c t0_0]
  have hz' : (fun a => win0_8.index t0_0 a * main_v12.ty.shape.size a) = fun _ => 0 :=
    funext fun a => by fin_cases a <;> decide
  exact (Memref.read_access_unit_zero (Elt Ideal) main_v12 hz' (fun a => by rw [congrFun hz' a]; simp) (table m c)).symm

/-- The one point's block covers the output. -/
theorem covered (i : S512x1.Idx) :
    ∃ t : Fin cfg0.N, (cfg0.win 8).flush t = true ∧ i ∈ ((cfg0.win 8).blk t).view.set := by
  refine ⟨t0_0, flush0_8 t0_0, ?_⟩
  show i ∈ ((View.whole main_v12).slice (win0_8.rect t0_0)).set
  rw [View.set_slice_whole, Rect.mem_set_unit]
  intro a
  have h0 : (i 0 : Nat) < 512 := (i 0).isLt
  have h1 : (i 1 : Nat) < 1 := (i 1).isLt
  match a with
  | ⟨0, _⟩ =>
    show win0_8.index t0_0 0 * win0_8.size 0 ≤ (i 0 : Nat)
      ∧ (i 0 : Nat) < win0_8.index t0_0 0 * win0_8.size 0 + win0_8.xsize (grid0.coords t0_0) 0
    rw [show win0_8.index t0_0 0 * win0_8.size 0 = 0 from by decide +kernel,
      show win0_8.xsize (grid0.coords t0_0) 0 = 512 from by decide +kernel]
    omega
  | ⟨1, _⟩ =>
    show win0_8.index t0_0 1 * win0_8.size 1 ≤ (i 1 : Nat)
      ∧ (i 1 : Nat) < win0_8.index t0_0 1 * win0_8.size 1 + win0_8.xsize (grid0.coords t0_0) 1
    rw [show win0_8.index t0_0 1 * win0_8.size 1 = 0 from by decide +kernel,
      show win0_8.xsize (grid0.coords t0_0) 1 = 1 from by decide +kernel]
    omega

/-- So the output array ends holding the table. -/
theorem table_final : (dats m 0 c).arrAt 8 cfg0.N = table m c :=
  (dats m 0 c).arrAt_eq_of_cover 8 (table m c) (fun t _ => flushed_eq m c t) covered

/-! ## The lookup after the region -/

/-- THE KERNEL PROGRAM'S RESULT: every node looks its row of the table up. -/
theorem tail_eq :
    Pipeline.afterTail₀ cfgs (dats m) 0 (V0 m) [hostOps1] c main_v19
      = result (argB m c) (argX m c) (argW1 m c) (argB1 m c) (argW2 m c) (argB2 m c) (argWc m c) (argBc m c) := by
  have hw : Pipeline.withArrays (cfgs 0).spec c (V0 m c) (fun w => (dats m 0 c).arrAt w (cfgs 0).N)
      (Proc.devRef .tc main_arg1) = argB m c :=
    (Pipeline.withArrays_of_ne _ c (V0 m c) _ main_arg1
      (by exact (by decide : ∀ w, Pipeline.arrRef spec0 w ≠ main_arg1))).trans (V_main_arg1 m c)
  have ht : Pipeline.withArrays (cfgs 0).spec c (V0 m c) (fun w => (dats m 0 c).arrAt w (cfgs 0).N)
      (Proc.devRef .tc main_v12) = table m c :=
    (Pipeline.withArrays_arr spec0 launch0.win.arr_inj c _ _ 8).trans (table_final m c)
  unfold Pipeline.afterTail₀
  show StableHlo.after hostOps1 _ (Proc.devRef .tc main_v19) = _
  after_results
  rw [hw, ht]
  funext i
  obtain ⟨n, q, rfl⟩ : ∃ (n : Fin 100000) (q : Fin 1), i = ix2 n q := ⟨i 0, i 1, eq_ix2 i⟩
  have hd : gather_S512x1_S100000x1_S100000x1_1_0_n_n_0_1_11
      = rowGather 512 1 100000 gather_S512x1_S100000x1_S100000x1_1_0_n_n_0_1_11_wf := rfl
  rw [hd, rowGather_apply (by decide), wordColumn_apply]
  rfl

/-! ## The run, read -/

/-- Every weakly fair execution of the kernel program ends with the result array at the network on per-graph rows, node
    by node, and the arguments unchanged. -/
theorem kernel_run : θ_run defs (onTc (τ := τ) (main (F := Ideal))) ⟨m, fun _ => 0, ρ⟩ fun r => ∀ c : Dev nD,
      r.2.mem ((c.tc : Thread nD τ).loc main_v19)
        = result (argB m c) (argX m c) (argW1 m c) (argB1 m c) (argW2 m c) (argB2 m c) (argWc m c) (argBc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelBridge

end
-- ==== Proof.lean ====
/-
  A two-layer graph network with a confidence head, evaluated per graph instead of per node.

  Every node `n` carries a graph word. The reference sums the node features over each graph, hands every node its
  graph's sum, applies `relu (· W1 + b1)` node by node, sums those rows over each graph again, hands every node its
  graph's sum, applies `relu (· W2 + b2)`, the head's product with `Wc` plus `bc`, and `sp / (1 + sp)` of the softplus.
  The kernel program computes the per-graph sums and the per-graph node counts on the host, evaluates the network ONCE per
  graph inside one kernel — the second segment sum replaced by `count · row` — and lets every node look its graph's result
  up.

  The two agree on the extended reals, for every graph word and with no use of the inputs' finiteness:
  * a node counted in graph `g`'s segment looks row `g` up (a word in `[0, 512)` is neither wrapped nor clamped), so the
    reference's second segment sum adds `count g` copies of ONE row;
  * a sum of copies of one extended real is the count times it, at the infinities too (a nonnegative factor distributes
    over a sum of nonnegative terms);
  * a matrix product into a zero accumulator and the host's `dot_general`, a lane sum and the host's contraction with a
    one-column matrix, are the same finite sums; a change of float format is the identity; the test `a ≠ a` guarding both
    heads never fires; and the kernel's `0 - |a|` is the host's `-|a|`.
  A node whose word names no graph is dropped by both segment sums and looks the same clamped row up in both programs.

  The kernel's idealization rewrote nothing, so `preserves` is `True`; the two kernel frames are the generated ones; the
  reference's frame is its generated run with the result dropped.
-/
import proofs.«117735_j2241972928775_2_alg».proof.Defs
import proofs.«117735_j2241972928775_2_alg».proof.Proof.Gen.Kernel
import proofs.«117735_j2241972928775_2_alg».proof.Proof.Gen.Kernel.Skeleton
import proofs.«117735_j2241972928775_2_alg».proof.Proof.Gen.Kernel.Launch
import proofs.«117735_j2241972928775_2_alg».proof.Proof.Gen.Kernel.Points
import proofs.«117735_j2241972928775_2_alg».proof.Proof.Gen.Kernel.Frame
import proofs.«117735_j2241972928775_2_alg».proof.Proof.Gen.KernelIdeal
import proofs.«117735_j2241972928775_2_alg».proof.Proof.Gen.KernelIdeal.Skeleton
import proofs.«117735_j2241972928775_2_alg».proof.Proof.Gen.KernelIdeal.Launch
import proofs.«117735_j2241972928775_2_alg».proof.Proof.Gen.KernelIdeal.Points
import proofs.«117735_j2241972928775_2_alg».proof.Proof.Gen.KernelIdeal.Frame
import proofs.«117735_j2241972928775_2_alg».proof.Proof.Gen.ReferenceIdeal
import proofs.«117735_j2241972928775_2_alg».proof.Proof.Gen.Pre_finite_inputs
import proofs.«117735_j2241972928775_2_alg».proof.Proof.Gen.ReferenceIdeal.Run
import proofs.«117735_j2241972928775_2_alg».proof.Proof.Gen.ReferenceIdeal.Read
import proofs.«117735_j2241972928775_2_alg».proof.Proof.RefValue
import proofs.«117735_j2241972928775_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both programs end with the network on per-graph rows, node by node, of arguments that agree. -/
theorem algebraic : Cert.algebraic_KernelIdeal_ReferenceIdeal := by
  intro m ρ m' ρ' _ hagree
  refine ⟨fun c => Cert.Spec.result (Cert.KernelBridge.argB m c) (Cert.KernelBridge.argX m c) (Cert.KernelBridge.argW1 m c)
      (Cert.KernelBridge.argB1 m c) (Cert.KernelBridge.argW2 m c) (Cert.KernelBridge.argB2 m c) (Cert.KernelBridge.argWc m c)
      (Cert.KernelBridge.argBc m c), Cert.KernelBridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.RefBridge.reference_eq]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
